-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .f32) (main_arg1 : FVec F S32768x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  main_v8
-- ==== Kernel.lean ====
abbrev S32768x2048 : Shape := ⟨2, ![32768, 2048]⟩
abbrev S2x8x128 : Shape := ⟨3, ![2, 8, 128]⟩
abbrev S512x2048 : Shape := ⟨2, ![512, 2048]⟩
abbrev S1x8x128 : Shape := ⟨3, ![1, 8, 128]⟩
abbrev S1x1 : Shape := ⟨2, ![1, 1]⟩
abbrev S512 : Shape := ⟨1, ![512]⟩
abbrev S512x1 : Shape := ⟨2, ![512, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2x8x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v37 : BitVec 1 := Scalar.cmpi .eq arg1 c31_i32
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  reduces_S512x1_S1 : S512x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S32768x2048.size a
  hwx0_1 : ∀ i : grid0.Coords, EltTy.bits .f32 = 32 ∨ (Rect.block (s := S32768x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32768x2048 : Shape := ⟨2, ![32768, 2048]⟩
abbrev S_ : Shape := ⟨0, ![]⟩
abbrev S32768 : Shape := ⟨1, ![32768]⟩
abbrev S32768x1 : Shape := ⟨2, ![32768, 1]⟩

abbrev nBuf : Space → Nat
  | .hbm => 43
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S_, .f32⟩
  | .hbm, ⟨3, _⟩ => ⟨S32768, .f32⟩
  | .hbm, ⟨4, _⟩ => ⟨S_, .f32⟩
  | .hbm, ⟨5, _⟩ => ⟨S32768, .f32⟩
  | .hbm, ⟨6, _⟩ => ⟨S32768, .f32⟩
  | .hbm, ⟨7, _⟩ => ⟨S32768x1, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768, .f32⟩
  | .hbm, ⟨19, _⟩ => ⟨S_, .f32⟩
  | .hbm, ⟨20, _⟩ => ⟨S32768, .f32⟩
  | .hbm, ⟨21, _⟩ => ⟨S32768, .f32⟩
  | .hbm, ⟨22, _⟩ => ⟨S32768x1, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S32768x1, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S_, .f32⟩
  | .hbm, ⟨35, _⟩ => ⟨S32768, .f32⟩
  | .hbm, ⟨36, _⟩ => ⟨S_, .f32⟩
  | .hbm, ⟨37, _⟩ => ⟨S32768, .f32⟩
  | .hbm, ⟨38, _⟩ => ⟨S32768, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_call1_cst : Ref sig .tc := ⟨.hbm, 17, rfl⟩
abbrev main_call1_v0 : Ref sig .tc := ⟨.hbm, 18, rfl⟩
abbrev main_call1_cst_0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_cst_1 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_cst_0 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_cst_2 : Ref sig .tc := ⟨.hbm, 41, rfl⟩
abbrev main_v8 : Ref sig .tc := ⟨.hbm, 42, rfl⟩

abbrev nD : Nat := 1
abbrev τ : Topo := Topo.v7x

variable {F : FTy → Type} [FloatOps F]

class Facts₀ : Prop where
  reducesTo_S32768x2048_S32768_d1 : S32768x2048.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2048_0_1 : S32768x1.BroadcastsInDim S32768x2048 (![0, 1] : Fin 2 → Fin S32768x2048.rank)
  reducesTo_S32768_S_d0 : S32768.ReducesTo [0] S_

variable [Facts₀]

class Facts : Prop extends Facts₀ where

variable [Facts]
-- ==== Proof.KernelPieces.lean ====
/-
  What one grid point leaves behind, as values. The kernel keeps a [1,1] accumulator across the 32 row tiles of
  a core: at a core's first tile it stores zero and then adds the tile's partial sum; at every other tile it adds
  the tile's partial sum to what the tile before left; at the core's last tile it also broadcasts the accumulator
  into the core's [1,8,128] output block. Each case's stores, read back, are the body's arithmetic (the payloads)
  of the two input tiles and the incoming accumulator: the loads read the whole buffers, and a load that follows
  a store of the whole accumulator reads what was stored.
-/
import proofs.«120945_j82875688944017_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A tile in the middle of a core's range: the accumulator ends at the tile's update of what it held. -/
theorem acc_middle (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : ¬cond0_1 i)
    (x0 : Vec F S512x2048 .f32) (x1 : Vec F S512x2048 .f32) (xs0 : Vec F S1x1 .f32) :
    sout0_B_0 c i arg2 harg2 arg3 harg3 arg4 harg4 arg5 harg5 hc0 hc1 x0 x1 xs0 = k0_pay3 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread, View.ld_unit_zero (S := S512x2048) hz2, View.ld_unit_zero (S := S1x1) hz2]

/-- A core's first tile: the accumulator is reset (the zero payload) and then updated; what it held before is
    not read. -/
theorem acc_first (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x8x128 .f32) (harg4 : arg4.IsWhole) (arg5 : Memref sig .tc .vmem S1x1 .f32) (harg5 : arg5.IsWhole) (hc0 : cond0_0 i) (hc1 : ¬cond0_1 i)
    (x0 : Vec F S512x2048 .f32) (x1 : Vec F S512x2048 .f32) :
    sout0_A_0 c i arg2 harg2 arg3 harg3 arg4 harg4 arg5 harg5 hc0 hc1 x0 x1 = k0_pay3 x0 x1 (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S512x2048) hz2]

/-- A core's last tile: the accumulator is updated as at a middle tile, -/
theorem acc_last (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 : Vec F S512x2048 .f32) (x1 : Vec F S512x2048 .f32) (xs0 : Vec F S1x1 .f32) :
    sout0_C_0 c i arg2 harg2 arg3 harg3 arg4 harg4 arg5 harg5 hc0 hc1 x0 x1 xs0 = k0_pay3 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S512x2048) hz2, View.ld_unit_zero (S := S1x1) hz2]

/-- and the output block is the broadcast of the updated accumulator, read back after its store. -/
theorem out_last (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 : Vec F S512x2048 .f32) (x1 : Vec F S512x2048 .f32) (xs0 : Vec F S1x1 .f32) :
    out0_C_2 c i arg2 harg2 arg3 harg3 arg4 harg4 arg5 harg5 hc0 hc1 x0 x1 xs0 = k0_pay1 (k0_pay3 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x1) _ hz2]
  simp only [View.readAt_eq_ld, harg2.read_unread, harg3.read_unread, harg5.read_unread, View.ld_unit_zero (S := S512x2048) hz2, View.ld_unit_zero (S := S1x1) hz2]

end Cert.KernelIdeal.Pieces

end
-- ==== Proof.RowLaw.lean ====
/-
  The law that joins the two programs, one row at a time, over the extended reals.

  For a row `a`, `b` of finite numbers (indexed by a finite nonempty type) write
  `M a = max_k a_k` and `L a = log Σ_k exp (a_k - M a)`, so that `log_softmax a k = (a_k - M a) - L a`.
  The reference takes, per row, the MINIMUM over `k` of `-(log_softmax a k + log_softmax b k)`;
  the kernel never forms the log-softmax and takes instead
  `(M a + L a + M b + L b) - max_k (a_k + b_k)`.
  Both are the same number: `-(((a_k - Ma) - La) + ((b_k - Mb) - Lb)) = C - (a_k + b_k)` with the constant
  `C = Ma + La + Mb + Lb`, and the minimum of `C - s_k` is `C` minus the maximum of `s_k`.
  The identity is one of REAL numbers (it moves a constant across a minimum and cancels), so it is
  proved over ℝ and transported: a maximum of reals from `⊥` is a real, each `exp` is a positive real,
  their sum is positive, its `log` is a real.
-/
import Idealize.ShloMosaic.PureOps.Ideal.Laws

noncomputable section

namespace Cert.RowLaw

open Idealize.ShloMosaic

variable {ι : Type} [Fintype ι] [Nonempty ι]

/-- The coercion of a finite real sum is the sum of the coercions. -/
theorem coe_sum (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The maximum, from `⊥`, of finitely many reals is the real maximum. -/
theorem fold_max_coe (f : ι → ℝ) :
    (Finset.univ : Finset ι).fold max (⊥ : EReal) (fun k => (f k : EReal))
      = ((Finset.univ.sup' Finset.univ_nonempty f : ℝ) : EReal) := by
  apply le_antisymm
  · rw [Finset.fold_max_le]
    exact ⟨bot_le, fun k _ => EReal.coe_le_coe_iff.mpr (Finset.le_sup' f (Finset.mem_univ k))⟩
  · obtain ⟨k, _, hk⟩ := Finset.exists_mem_eq_sup' Finset.univ_nonempty f
    rw [Finset.le_fold_max]
    exact Or.inr ⟨k, Finset.mem_univ k, by rw [hk]⟩

/-- The minimum, from `⊤`, of finitely many reals is the real minimum. -/
theorem fold_min_coe (f : ι → ℝ) :
    (Finset.univ : Finset ι).fold min (⊤ : EReal) (fun k => (f k : EReal))
      = ((Finset.univ.inf' Finset.univ_nonempty f : ℝ) : EReal) := by
  apply le_antisymm
  · obtain ⟨k, _, hk⟩ := Finset.exists_mem_eq_inf' Finset.univ_nonempty f
    rw [Finset.fold_min_le]
    exact Or.inr ⟨k, Finset.mem_univ k, by rw [hk]⟩
  · rw [Finset.le_fold_min]
    exact ⟨le_top, fun k _ => EReal.coe_le_coe_iff.mpr (Finset.inf'_le f (Finset.mem_univ k))⟩

/-- `log Σ_k exp (f_k - M)` of reals is a real: every term is positive, so the sum is. -/
theorem log_sum_exp_coe (f : ι → ℝ) (M : ℝ) :
    Ideal.log (∑ k, Ideal.exp ((f k : EReal) - (M : EReal)))
      = ((Real.log (∑ k, Real.exp (f k - M)) : ℝ) : EReal) := by
  have h : ∀ k, Ideal.exp ((f k : EReal) - (M : EReal)) = ((Real.exp (f k - M) : ℝ) : EReal) := fun k => by
    rw [← EReal.coe_sub, Ideal.exp_coe]
  rw [Finset.sum_congr rfl fun k _ => h k, ← coe_sum, Ideal.log_coe, if_neg]
  exact not_le.mpr (Finset.sum_pos (fun k _ => Real.exp_pos _) Finset.univ_nonempty)

/-- The real identity: a minimum of `C - s_k` is `C` minus the maximum of `s_k`, with
    `C = Ma + La + Mb + Lb` spelt as the reference spells each term. It holds for ANY constants. -/
theorem real_row (a b : ι → ℝ) (Ma La Mb Lb : ℝ) :
    Finset.univ.inf' Finset.univ_nonempty (fun k => -(((a k - Ma) - La) + ((b k - Mb) - Lb)))
      = (((Ma + La) + Mb) + Lb) - Finset.univ.sup' Finset.univ_nonempty (fun k => a k + b k) := by
  apply le_antisymm
  · obtain ⟨k, _, hk⟩ := Finset.exists_mem_eq_sup' Finset.univ_nonempty (fun k => a k + b k)
    refine (Finset.inf'_le _ (Finset.mem_univ k)).trans (le_of_eq ?_)
    rw [hk]; ring
  · rw [Finset.le_inf'_iff]
    intro k _
    have hle : a k + b k ≤ Finset.univ.sup' Finset.univ_nonempty (fun k => a k + b k) :=
      Finset.le_sup' (fun k => a k + b k) (Finset.mem_univ k)
    show _ ≤ -(((a k - Ma) - La) + ((b k - Mb) - Lb))
    linarith

/-- A row's maximum as both programs take it: the fold of `max` from `-∞`. -/
def rowMax (a : ι → EReal) : EReal := (Finset.univ : Finset ι).fold max ⊥ a

/-- What the KERNEL computes for one row: `(M a + L a + M b + L b) - max_k (a_k + b_k)`, associated as printed. -/
def kernelRow (a b : ι → EReal) : EReal :=
  (((rowMax a + Ideal.log (∑ k, Ideal.exp (a k - rowMax a))) + rowMax b)
      + Ideal.log (∑ k, Ideal.exp (b k - rowMax b))) - rowMax (fun k => a k + b k)

/-- What the REFERENCE computes for one row: the minimum over `k`, from `+∞`, of minus the sum of the two
    log-softmaxes, each `(a_k - max ⊥ (M a)) - log (0 + Σ_j exp (a_j - max ⊥ (M a)))` as jax prints it. -/
def refRow (a b : ι → EReal) : EReal :=
  (Finset.univ : Finset ι).fold min ⊤ (fun k =>
    -(((a k - max ⊥ (rowMax a)) - Ideal.log (0 + ∑ j, Ideal.exp (a j - max ⊥ (rowMax a))))
      + ((b k - max ⊥ (rowMax b)) - Ideal.log (0 + ∑ j, Ideal.exp (b j - max ⊥ (rowMax b))))))

/-- On rows of finite numbers the two are one extended real (a real, in fact). -/
theorem kernelRow_eq_refRow (a b : ι → EReal) (ha : ∀ k, ∃ r : ℝ, a k = r) (hb : ∀ k, ∃ r : ℝ, b k = r) :
    kernelRow a b = refRow a b := by
  choose a' ha using ha
  choose b' hb using hb
  obtain rfl : a = fun k => (a' k : EReal) := funext ha
  obtain rfl : b = fun k => (b' k : EReal) := funext hb
  have hMa : rowMax (fun k => (a' k : EReal)) = _ := fold_max_coe a'
  have hMb : rowMax (fun k => (b' k : EReal)) = _ := fold_max_coe b'
  have hMs : rowMax (fun k => (a' k : EReal) + (b' k : EReal))
      = ((Finset.univ.sup' Finset.univ_nonempty (fun k => a' k + b' k) : ℝ) : EReal) := by
    rw [show (fun k => (a' k : EReal) + (b' k : EReal)) = fun k => ((a' k + b' k : ℝ) : EReal) from
      funext fun k => (EReal.coe_add _ _).symm]
    exact fold_max_coe _
  unfold kernelRow refRow
  simp only [hMa, hMb, hMs, max_eq_right bot_le, zero_add, log_sum_exp_coe]
  simp only [← EReal.coe_sub, ← EReal.coe_add, ← EReal.coe_neg]
  rw [fold_min_coe, real_row]

end Cert.RowLaw

end
-- ==== Proof.KernelPayload.lean ====
/-
  The body's arithmetic at an index, over the extended reals.

  One grid point holds a tile of 512 rows of `x` and of `y` (2048 entries each). For every row the body takes the
  row maximum `M` (a lane reduction from `-∞`, kept as a column), `L = log Σ_k exp (row_k - M)` (the maximum
  broadcast back along the row, a lane sum, a log), the same for `y`, and the row maximum of `x + y`; the column
  `½ · ((Mx + Lx + My + Ly) - Mxy)` is then summed over the 512 rows and added to the [1,1] accumulator.
  Read at the accumulator's one index this is: the incoming accumulator plus the sum over the tile's rows of
  `½ · kernelRow (row r of x) (row r of y)` (`RowLaw.kernelRow`).
-/
import proofs.«120945_j82875688944017_2_alg».proof.Proof.Gen.KernelIdeal.Skeleton
import proofs.«120945_j82875688944017_2_alg».proof.Proof.RowLaw
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.RowLaw

/-! ## Keepdims layouts read at an index -/

section Layout
variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Layout

/-! ## The body's columns, named -/

section Cols
variable {F : FTy → Type} [FloatOps F]

/-- The row maxima of a tile, as a column. -/
def maxCol (v : FVec F S512x2048 .f32) : FVec F S512x1 .f32 :=
  shapeCast S512x1 (multiReduction .maximumf [1] S512 v 0xFF800000#32 reduces_S512x2048_S512 (.inl rfl) rfl) shapeCasts_S512_S512x1

/-- `log Σ_k exp (v_k - max)` per row, as a column. -/
def lseCol (v : FVec F S512x2048 .f32) : FVec F S512x1 .f32 :=
  log (shapeCast S512x1 (multiReduction .add [1] S512 (exp (subf v (broadcastTo S512x2048 (maxCol v) broadcasts_S512x1_S512x2048)))
    0x00000000#32 reduces_S512x2048_S512 (.inl rfl) rfl) shapeCasts_S512_S512x1)

/-- The per-row value `½ · ((Mx + Lx + My + Ly) - Mxy)`, as a column. -/
def rowCol (v3 v4 : FVec F S512x2048 .f32) : FVec F S512x1 .f32 :=
  mulf (broadcast S512x1 (Scalar.ofBits .f32 0x3F000000#32))
    (subf (addf (addf (addf (maxCol v3) (lseCol v3)) (maxCol v4)) (lseCol v4)) (maxCol (addf v3 v4)))

/-- The accumulator's update is the incoming accumulator plus the column's sum over the tile's rows. -/
theorem pay3_eq (v3 v4 : Vec F S512x2048 .f32) (v32 : Vec F S1x1 .f32) :
    k0_pay3 v3 v4 v32 = addf v32 (shapeCast S1x1 (multiReduction .add [0] S1 (rowCol v3 v4) 0x00000000#32 reduces_S512x1_S1 (.inl rfl) rfl) shapeCasts_S1_S1x1) :=
  shapeCast_self _ _

end Cols

/-! ## The columns at an index, at the ideal instance -/

theorem ofBits_negInf : Ideal.ofBits .f32 0xFF800000#32 = ⊥ := by simp [Ideal.ofBits, Ideal.ieee]

/-- Row `r` with the lane `k` put back on the reduced axis is the entry `(r, k)`. -/
theorem lift_row (r : Fin 512) (k : Fin 2048) : reduces_S512x2048_S512.lift (ix1 r) k = ix2 r k :=
  funext fun a => Fin.ext (by match a with | ⟨0, _⟩ => rfl | ⟨1, _⟩ => rfl)

/-- The column's one entry with the row `r` put back on the reduced axis is the entry `(r, p)`. -/
theorem lift_col (p : Fin 1) (r : Fin 512) : reduces_S512x1_S1.lift (ix1 p) r = ix2 r p :=
  funext fun a => Fin.ext (by match a with | ⟨0, _⟩ => rfl | ⟨1, _⟩ => rfl)

/-- A tile's row maximum at row `r`: the fold of `max` from `-∞` over that row. -/
theorem maxCol_apply (v : FVec Ideal S512x2048 .f32) (r : Fin 512) (u : Fin 1) :
    maxCol (F := Ideal) v (ix2 r u) = rowMax (fun k : Fin 2048 => v (ix2 r k)) := by
  unfold maxCol
  refine (shapeCast_a_a1_apply _ _ r u).trans ?_
  refine (Ideal.multiReduction_maximumf_single v 0xFF800000#32 reduces_S512x2048_S512 (.inl rfl) rfl (ix1 r)).trans ?_
  show (Finset.univ : Finset (Fin 2048)).fold max (Ideal.ofBits .f32 0xFF800000#32) (fun k : Fin 2048 => v (reduces_S512x2048_S512.lift (ix1 r) k))
    = (Finset.univ : Finset (Fin 2048)).fold max ⊥ (fun k : Fin 2048 => v (ix2 r k))
  rw [ofBits_negInf]
  simp only [lift_row]

/-- A tile's `log Σ exp` at row `r`. -/
theorem lseCol_apply (v : FVec Ideal S512x2048 .f32) (r : Fin 512) (u : Fin 1) :
    lseCol (F := Ideal) v (ix2 r u)
      = Ideal.log (∑ k : Fin 2048, Ideal.exp (v (ix2 r k) - rowMax (fun k : Fin 2048 => v (ix2 r k)))) := by
  unfold lseCol
  show Ideal.log (shapeCast S512x1 _ shapeCasts_S512_S512x1 (ix2 r u)) = _
  refine congrArg Ideal.log ?_
  refine (shapeCast_a_a1_apply _ _ r u).trans ?_
  refine (Ideal.multiReduction_add_single _ 0x00000000#32 reduces_S512x2048_S512 (.inl rfl) rfl (ix1 r)).trans ?_
  show ∑ k : Fin 2048, Ideal.exp (v (reduces_S512x2048_S512.lift (ix1 r) k)
      - broadcastTo S512x2048 (maxCol (F := Ideal) v) broadcasts_S512x1_S512x2048 (reduces_S512x2048_S512.lift (ix1 r) k)) = _
  refine Finset.sum_congr rfl fun k _ => ?_
  rw [lift_row, broadcastTo_a1_ab_apply, maxCol_apply]

theorem scalar_ofBits (w : BitVec 32) : Scalar.ofBits (F := Ideal) .f32 w = Ideal.ofBits .f32 w := rfl

/-- The per-row column at row `r`: `½ · kernelRow` of the two rows. -/
theorem rowCol_apply (v3 v4 : FVec Ideal S512x2048 .f32) (r : Fin 512) (u : Fin 1) :
    rowCol (F := Ideal) v3 v4 (ix2 r u)
      = Ideal.ofBits .f32 0x3F000000#32 * kernelRow (fun k : Fin 2048 => v3 (ix2 r k)) (fun k : Fin 2048 => v4 (ix2 r k)) := by
  unfold rowCol kernelRow
  rw [mulf_apply, subf_apply, addf_apply, addf_apply, addf_apply, broadcast_apply, scalar_ofBits,
    maxCol_apply, maxCol_apply, maxCol_apply, lseCol_apply, lseCol_apply]
  simp only [addf_apply]

/-- THE UPDATE at the accumulator's index: the incoming value plus the tile's rows' sum. -/
theorem pay3_apply (v3 v4 : Vec Ideal S512x2048 .f32) (v32 : Vec Ideal S1x1 .f32) (j : S1x1.Idx) :
    k0_pay3 (F := Ideal) v3 v4 v32 j
      = v32 j + ∑ r : Fin 512, Ideal.ofBits .f32 0x3F000000#32
          * kernelRow (fun k : Fin 2048 => v3 (ix2 r k)) (fun k : Fin 2048 => v4 (ix2 r k)) := by
  obtain ⟨p, q, rfl⟩ : ∃ (p : Fin 1) (q : Fin 1), j = ix2 p q := ⟨j 0, j 1, eq_ix2 j⟩
  rw [pay3_eq, addf_apply]
  refine congrArg (v32 (ix2 p q) + ·) ?_
  refine (shapeCast_a_a1_apply _ _ p q).trans ?_
  refine (Ideal.multiReduction_add_single (rowCol (F := Ideal) v3 v4) 0x00000000#32 reduces_S512x1_S1 (.inl rfl) rfl (ix1 p)).trans ?_
  show ∑ r : Fin 512, rowCol (F := Ideal) v3 v4 (reduces_S512x1_S1.lift (ix1 p) r) = _
  refine Finset.sum_congr rfl fun r _ => ?_
  rw [lift_col, rowCol_apply]

/-- The reset stores zero. -/
theorem pay2_apply (j : S1x1.Idx) : k0_pay2 (F := Ideal) j = 0 := by
  unfold k0_pay2
  rw [shapeCast_self]
  exact Ideal.ofBits_zero_f32

/-- The output block is the accumulator's one entry at every index. -/
theorem pay1_apply (v : Vec Ideal S1x1 .f32) (j : S1x8x128.Idx) : k0_pay1 (F := Ideal) v j = v (ix2 (0 : Fin 1) (0 : Fin 1)) := by
  unfold k0_pay1
  rw [shapeCast_self]
  refine (broadcastTo_apply _ broadcasts_S1x1x1_S1x8x128 j (ix3 (0 : Fin 1) (0 : Fin 1) (0 : Fin 1)) fun a => ?_).trans ?_
  · match a with
    | ⟨0, _⟩ => rfl
    | ⟨1, _⟩ => rfl
    | ⟨2, _⟩ => rfl
  · refine (shapeCast_addUnit_apply ![1, 1] v shapeCasts_S1x1_S1x1x1 _).trans ?_
    exact congrArg v (funext fun a => by match a with | ⟨0, _⟩ => rfl | ⟨1, _⟩ => rfl)

end Cert.KernelIdeal.Payload

end
-- ==== Proof.SumLaw.lean ====
/-
  Sums in blocks, and the accumulator's running sum.

  The reference adds its 32768 per-row values in one sum. The kernel adds them tile by tile (512 rows), the tiles
  of a core one after the other into an accumulator that is reset at the core's first tile (32 tiles per core),
  and the host adds the two cores' accumulators. In a commutative monoid these are the same sum: only the
  grouping differs, so nothing here asks the terms to be finite.
-/
import Mathlib.Algebra.BigOperators.Intervals
import Mathlib.Algebra.BigOperators.Fin

namespace Cert.SumLaw

open Finset

variable {M : Type*} [AddCommMonoid M]

/-- `A` blocks of `B` consecutive terms are the first `A * B` terms. -/
theorem sum_blocks (f : ℕ → M) (A B : ℕ) :
    ∑ c ∈ range A, ∑ j ∈ range B, f (B * c + j) = ∑ n ∈ range (A * B), f n := by
  induction A with
  | zero => simp
  | succ A ih =>
    rw [sum_range_succ, ih, Nat.succ_mul, sum_range_add]
    refine congrArg (_ + ·) (sum_congr rfl fun j _ => ?_)
    rw [Nat.mul_comm]

/-- The same one level deeper: `A` groups of `B` tiles of `R` rows are the first `A * B * R` rows. -/
theorem sum_blocks₂ (q : ℕ → M) (A B R : ℕ) :
    ∑ c ∈ range A, ∑ j ∈ range B, ∑ r ∈ range R, q (R * (B * c + j) + r) = ∑ n ∈ range (A * B * R), q n := by
  rw [sum_blocks (fun n => ∑ r ∈ range R, q (R * n + r)) A B, sum_blocks q (A * B) R]

/-- The accumulator after position `n`: reset to the position's term `P n` at every position divisible by `B`,
    otherwise what it held plus `P n`. -/
def acc (B : ℕ) (P : ℕ → M) : ℕ → M
  | 0 => P 0
  | n + 1 => if (n + 1) % B = 0 then P (n + 1) else acc B P n + P (n + 1)

theorem acc_reset (B : ℕ) (P : ℕ → M) (n : ℕ) (h : n % B = 0) : acc B P n = P n := by
  cases n with
  | zero => rfl
  | succ n => exact if_pos h

theorem acc_step (B : ℕ) (P : ℕ → M) (n : ℕ) (h : ¬(n + 1) % B = 0) : acc B P (n + 1) = acc B P n + P (n + 1) :=
  if_neg h

/-- Inside group `k` the accumulator is the sum of the group's terms so far. -/
theorem acc_eq_sum (B : ℕ) (P : ℕ → M) (k : ℕ) :
    ∀ i, i < B → acc B P (B * k + i) = ∑ j ∈ range (i + 1), P (B * k + j)
  | 0, _ => by rw [Nat.add_zero, acc_reset B P _ (Nat.mul_mod_right B k), sum_range_one, Nat.add_zero]
  | i + 1, h => by
    have hne : ¬(B * k + i + 1) % B = 0 := by
      rw [Nat.add_assoc, Nat.mul_add_mod, Nat.mod_eq_of_lt h]; exact Nat.succ_ne_zero i
    rw [← Nat.add_assoc, acc_step B P _ hne, acc_eq_sum B P k i (Nat.lt_of_succ_lt h),
      sum_range_succ (fun j => P (B * k + j)) (i + 1), Nat.add_assoc]

end Cert.SumLaw
-- ==== Proof.Spec.lean ====
/-
  The result both programs compute, as ONE function of the two argument arrays.

  For row `n` of `x` and `y` the per-row value is `½ · kernelRow (row n of x) (row n of y)`; the result is the sum of
  the 32768 per-row values, from zero, divided by 32768. The kernel reaches it tile by tile and core by core (the
  grouping of SumLaw); the reference reaches it with `refRow` in place of `kernelRow`, which is the same number on
  rows of finite entries (RowLaw).
-/
import proofs.«120945_j82875688944017_2_alg».proof.Proof.RowLaw
import proofs.«120945_j82875688944017_2_alg».proof.Proof.SumLaw
import Idealize.ShloMosaic.Lib.ValueIdx

noncomputable section

namespace Cert.Spec

open Idealize.ShloMosaic Idealize.ShloMosaic.ValueIdx Cert.RowLaw Cert.SumLaw Finset

/-- An argument array: 32768 rows of 2048 entries. -/
abbrev Arr := (⟨2, ![32768, 2048]⟩ : Shape).Idx → EReal

/-- The factor ½, as both programs spell it. -/
abbrev half : EReal := Ideal.ofBits .f32 0x3F000000#32

/-- Row `n` of an array (zero past the last row, which no sum below reaches). -/
def row (x : Arr) (n : ℕ) : Fin 2048 → EReal := fun k => if h : n < 32768 then x (ix2 ⟨n, h⟩ k) else 0

theorem row_of_lt (x : Arr) (n : ℕ) (h : n < 32768) : row x n = fun k => x (ix2 ⟨n, h⟩ k) :=
  funext fun _ => dif_pos h

/-- The per-row value as the kernel computes it, -/
def rowVal (x y : Arr) (n : ℕ) : EReal := half * kernelRow (row x n) (row y n)
/-- and as the reference does. -/
def refVal (x y : Arr) (n : ℕ) : EReal := half * refRow (row x n) (row y n)

/-- A tile's partial sum: 512 consecutive rows. -/
def tileVal (x y : Arr) (t : ℕ) : EReal := ∑ r ∈ range 512, rowVal x y (512 * t + r)
/-- A core's accumulator after its last tile: reset at the core's first tile, 32 tiles per core. -/
def coreVal (x y : Arr) (k : ℕ) : EReal := acc 32 (tileVal x y) (32 * k + 31)

/-- THE RESULT: the per-row values summed from zero and divided by the row count, each constant as printed. -/
def total (x y : Arr) : EReal :=
  Ideal.div (Ideal.ofBits .f32 0x00000000#32 + ∑ n ∈ range 32768, rowVal x y n) (Ideal.ofBits .f32 0x47000000#32)

/-- The two cores' accumulators add up to the sum over all rows. -/
theorem cores_eq (x y : Arr) : ∑ k ∈ range 2, coreVal x y k = ∑ n ∈ range 32768, rowVal x y n := by
  have h : ∀ k, coreVal x y k = ∑ j ∈ range 32, tileVal x y (32 * k + j) :=
    fun k => acc_eq_sum 32 (tileVal x y) k 31 (by norm_num)
  simp only [h, tileVal]
  exact sum_blocks₂ (rowVal x y) 2 32 512

/-- Every entry is a real number. -/
def Finite (x : Arr) : Prop := ∀ i, ∃ r : ℝ, x i = r

/-- On finite arrays the reference's per-row value is the kernel's. -/
theorem refVal_eq_rowVal (x y : Arr) (hx : Finite x) (hy : Finite y) (n : ℕ) : refVal x y n = rowVal x y n := by
  unfold refVal rowVal
  rw [kernelRow_eq_refRow]
  · intro k; unfold row; split
    · exact hx _
    · exact ⟨0, rfl⟩
  · intro k; unfold row; split
    · exact hy _
    · exact ⟨0, rfl⟩

/-- A rank-1 index set is its one coordinate's range, -/
def idxEquiv1 {n : ℕ} : (⟨1, ![n]⟩ : Shape).Idx ≃ Fin n where
  toFun j := j 0
  invFun a := ix1 a
  left_inv j := (eq_ix1 j).symm
  right_inv _ := rfl

/-- so a sum over it is the sum over the coordinate. -/
theorem sum_idx1 {M : Type*} [AddCommMonoid M] {n : ℕ} (f : (⟨1, ![n]⟩ : Shape).Idx → M) :
    ∑ j, f j = ∑ a : Fin n, f (ix1 a) := by
  rw [← Equiv.sum_comp (idxEquiv1 (n := n)).symm f]
  rfl

end Cert.Spec

end
-- ==== Proof.KernelAcc.lean ====
/-
  The accumulator across the grid, as a function of the argument arrays.

  Grid point `t` (of 64: two cores of 32 tiles) stages rows `512 t … 512 t + 511` of `x` and of `y`. The scratch
  accumulator after point `t` is therefore `SumLaw.acc 32 (Spec.tileVal x y) t`: reset at `t ≡ 0 (mod 32)` to that
  tile's partial sum, otherwise the previous value plus the tile's partial sum — by induction on the point over the
  three cases of the body (first, middle and last tile of a core). At a core's last tile the output block holds
  that accumulator at every index.
-/
import proofs.«120945_j82875688944017_2_alg».proof.Proof.KernelPieces
import proofs.«120945_j82875688944017_2_alg».proof.Proof.KernelPayload
import proofs.«120945_j82875688944017_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Pieces Cert.KernelIdeal.Payload Cert.RowLaw Cert.SumLaw

variable (m : (ℓ : Loc nD τ sig) → Buf (Elt Ideal) ℓ)

/-- The two argument arrays on core `c`. -/
abbrev X (c : Dev nD) : Spec.Arr := m ((c : Thread nD τ).loc main_arg0)
abbrev Y (c : Dev nD) : Spec.Arr := m ((c : Thread nD τ).loc main_arg1)

/-- The printed index maps of the two input windows, decided over the grid: point `t` stages row block `t`. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of the tile of `x` at point `t` is row `512 t + r` of `x`. -/
theorem iblk0_row (c : Dev nD) (t : Fin cfg0.N) (r : Fin 512) (h : 512 * t.val + r.val < 32768) :
    (fun k : Fin 2048 => (iblk m c 0 t : Vec Ideal S512x2048 .f32) (ix2 r k))
      = fun k : Fin 2048 => X m c (ix2 ⟨512 * t.val + r.val, h⟩ k) := by
  obtain ⟨e0, e1, -, -⟩ := idx_in t
  funext k
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 2048 + 1 * k.val = k.val; rw [e1]; omega

/-- The same for `y`. -/
theorem iblk1_row (c : Dev nD) (t : Fin cfg0.N) (r : Fin 512) (h : 512 * t.val + r.val < 32768) :
    (fun k : Fin 2048 => (iblk m c 1 t : Vec Ideal S512x2048 .f32) (ix2 r k))
      = fun k : Fin 2048 => Y m c (ix2 ⟨512 * t.val + r.val, h⟩ k) := by
  obtain ⟨-, -, e0, e1⟩ := idx_in t
  funext k
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 512 + 1 * r.val = 512 * t.val + r.val; rw [e0]; omega
  | ⟨1, _⟩ => show win0_1.index t (1 : Fin 2) * 2048 + 1 * k.val = k.val; rw [e1]; omega

/-- The tile's rows' sum at point `t` is the specification's partial sum of tile `t`. -/
theorem tile_eq (c : Dev nD) (t : Fin cfg0.N) :
    ∑ r : Fin 512, Ideal.ofBits .f32 0x3F000000#32
        * kernelRow (fun k : Fin 2048 => (iblk m c 0 t : Vec Ideal S512x2048 .f32) (ix2 r k))
            (fun k : Fin 2048 => (iblk m c 1 t : Vec Ideal S512x2048 .f32) (ix2 r k))
      = Spec.tileVal (X m c) (Y m c) t.val := by
  have hN : t.val < 64 := lt_of_lt_of_eq t.isLt (show cfg0.N = 64 from N_0)
  unfold Spec.tileVal
  rw [← Fin.sum_univ_eq_sum_range (fun r => Spec.rowVal (X m c) (Y m c) (512 * t.val + r)) 512]
  refine Finset.sum_congr rfl fun r _ => ?_
  have h : 512 * t.val + r.val < 32768 := by have := r.isLt; omega
  unfold Spec.rowVal
  rw [Spec.row_of_lt _ _ h, Spec.row_of_lt _ _ h, iblk0_row m c t r h, iblk1_row m c t r h]

/-- The accumulator's update at point `t`, read at its index: the incoming value plus tile `t`'s partial sum. -/
theorem update_apply (c : Dev nD) (t : Fin cfg0.N) (xs : Vec Ideal S1x1 .f32) (j : S1x1.Idx) :
    k0_pay3 (F := Ideal) (iblk m c 0 t) (iblk m c 1 t) xs j = xs j + Spec.tileVal (X m c) (Y m c) t.val :=
  (pay3_apply (iblk m c 0 t) (iblk m c 1 t) xs j).trans (congrArg (xs j + ·) (tile_eq m c t))

/-- What the scratch holds after a core's first tile, -/
theorem scr_first (c : Dev nD) (t : Fin cfg0.N) (h0 : t.val % 32 = 0) (h1 : ¬t.val % 32 = 31) :
    (outsAt0 m c t.val t.isLt).2 = k0_pay3 (iblk m c 0 t) (iblk m c 1 t) (k0_pay2 (F := Ideal)) := by
  rw [outsAt0_A m c t h0 h1]
  exact acc_first c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- after a middle tile, -/
theorem scr_middle (c : Dev nD) (t : Fin cfg0.N) (h0 : ¬t.val % 32 = 0) (h1 : ¬t.val % 32 = 31) :
    (outsAt0 m c t.val t.isLt).2 = k0_pay3 (iblk m c 0 t) (iblk m c 1 t)
      (outsAt0 m c (t.val - 1) (Nat.lt_of_le_of_lt (Nat.sub_le _ _) t.isLt)).2 := by
  rw [outsAt0_B m c t h0 h1]
  exact acc_middle c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- and after a core's last tile; -/
theorem scr_last (c : Dev nD) (t : Fin cfg0.N) (h0 : ¬t.val % 32 = 0) (h1 : t.val % 32 = 31) :
    (outsAt0 m c t.val t.isLt).2 = k0_pay3 (iblk m c 0 t) (iblk m c 1 t)
      (outsAt0 m c (t.val - 1) (Nat.lt_of_le_of_lt (Nat.sub_le _ _) t.isLt)).2 := by
  rw [outsAt0_C m c t h0 h1]
  exact acc_last c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-- there the output block is the broadcast of the scratch. -/
theorem out_at_last (c : Dev nD) (t : Fin cfg0.N) (h0 : ¬t.val % 32 = 0) (h1 : t.val % 32 = 31) :
    (outsAt0 m c t.val t.isLt).1 = k0_pay1 (outsAt0 m c t.val t.isLt).2 := by
  have e1 := out_last c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2
  have e2 := acc_last c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2
  rw [outsAt0_C m c t h0 h1]
  dsimp only
  rw [e2]
  exact e1

/-- THE INVARIANT: after point `n` the scratch holds the running sum of the core's tiles so far. -/
theorem scratch_eq (c : Dev nD) : ∀ (n : ℕ) (h : n < cfg0.N) (j : S1x1.Idx),
    (outsAt0 m c n h).2 j = acc 32 (Spec.tileVal (X m c) (Y m c)) n
  | 0, h, j => by
    rw [scr_first m c ⟨0, h⟩ rfl (by show ¬(0 : ℕ) % 32 = 31; decide), update_apply, pay2_apply, zero_add]
    rfl
  | n + 1, h, j => by
    by_cases h0 : (n + 1) % 32 = 0
    · have h1 : ¬(n + 1) % 32 = 31 := by omega
      rw [scr_first m c ⟨n + 1, h⟩ h0 h1, update_apply, pay2_apply, zero_add, acc_reset _ _ _ h0]
    · by_cases h1 : (n + 1) % 32 = 31
      · rw [scr_last m c ⟨n + 1, h⟩ h0 h1, update_apply, acc_step _ _ _ h0]
        exact congrArg (· + _) (scratch_eq c n _ j)
      · rw [scr_middle m c ⟨n + 1, h⟩ h0 h1, update_apply, acc_step _ _ _ h0]
        exact congrArg (· + _) (scratch_eq c n _ j)

/-- THE OUTPUT BLOCK a core's last tile writes back: the core's accumulator at every index. -/
theorem out_eq (c : Dev nD) (t : Fin cfg0.N) (h1 : t.val % 32 = 31) (j : S1x8x128.Idx) :
    (outsAt0 m c t.val t.isLt).1 j = acc 32 (Spec.tileVal (X m c) (Y m c)) t.val := by
  have h0 : ¬t.val % 32 = 0 := by omega
  rw [out_at_last m c t h0 h1, pay1_apply]
  exact scratch_eq m c t.val t.isLt _

end Cert.KernelIdeal.Acc

end
-- ==== Proof.KernelResult.lean ====
/-
  The kernel's result, read off its run.

  The region's [2,8,128] result array: the one block a core's last tile writes back (points 31 and 63) is block
  `core` of the array, and it holds the core's accumulator at every index; the two blocks cover the array. The host
  then takes entry (core, 0, 0) of each core's block, adds the two from zero, and divides by 32768: by the
  regrouping of sums this is `Spec.total` of the two argument arrays.
-/
import proofs.«120945_j82875688944017_2_alg».proof.Proof.KernelAcc
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Acc Cert.SumLaw

variable (m : (ℓ : Loc nD τ sig) → Buf (Elt Ideal) ℓ) (ρ : Dev nD → PrngReg)

/-- What the region's result array ends holding: core `i 0`'s accumulator, at every index of the core's block. -/
def G (c : Dev nD) : S2x8x128.Idx → EReal := fun i => Spec.coreVal (X m c) (Y m c) (i 0).val

/-- The printed index map of the output window, decided over the grid: point `t` is on block `t / 32`. -/
theorem idx_out : ∀ t : Fin cfg0.N, win0_2.index t (0 : Fin 3) = t.val / 32 ∧ win0_2.index t (1 : Fin 3) = 0
    ∧ win0_2.index t (2 : Fin 3) = 0 :=
  (by decide +kernel : ∀ t : Fin grid0.N, _)

/-- What a core's last tile writes back is the core's block of `G`. -/
theorem flushed_eq (c : Dev nD) (t : Fin cfg0.N) (hf : (cfg0.win 2).flush t = true) :
    (dats m 0 c).flushed 2 t = ((cfg0.win 2).blk t).view.read (Elt Ideal) (G m c) := by
  have h31 : t.val % 32 = 31 := (flush0_2 t).mp hf
  obtain ⟨e0, -, -⟩ := idx_out t
  show (cfg0.win 2).cut (grid0.coords t) ((dats m 0 c).after 2 t) = _
  rw [after0_2]
  funext j
  show (outsAt0 m c t.val t.isLt).1 j = G m c (((cfg0.win 2).blk t).view.emb j)
  rw [out_eq m c t h31 j]
  have hj : (j 0).val < 1 := (j 0).isLt
  have hk : ((((cfg0.win 2).blk t).view.emb j) 0).val = t.val / 32 := by
    show win0_2.index t (0 : Fin 3) * 1 + 1 * (j 0).val = _
    rw [e0]; omega
  unfold G Spec.coreVal
  rw [hk]
  exact congrArg (acc 32 (Spec.tileVal (X m c) (Y m c))) (by omega)

/-- An index of the array is in point `t`'s block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- THE RESULT ARRAY of the region after the run. -/
theorem final (c : Dev nD) : (dats m 0 c).arrAt 2 cfg0.N = G m c :=
  (dats m 0 c).arrAt_eq_of_cover 2 (G m c) (flushed_eq m c) fun i => by
    have hN : cfg0.N = 64 := N_0
    have hi0 : (i 0).val < 2 := (i 0).isLt
    have hi1 : (i 1).val < 8 := (i 1).isLt
    have hi2 : (i 2).val < 128 := (i 2).isLt
    refine ⟨⟨32 * (i 0).val + 31, by omega⟩, (flush0_2 _).mpr (by show (32 * (i 0).val + 31) % 32 = 31; omega), ?_⟩
    rw [mem_blk]
    obtain ⟨e0, e1, e2⟩ := idx_out ⟨32 * (i 0).val + 31, by omega⟩
    intro a
    match a with
    | ⟨0, _⟩ =>
      show win0_2.index _ (0 : Fin 3) * 1 ≤ (i 0).val ∧ (i 0).val < win0_2.index _ (0 : Fin 3) * 1 + 1
      rw [e0]; show (32 * (i 0).val + 31) / 32 * 1 ≤ (i 0).val ∧ (i 0).val < (32 * (i 0).val + 31) / 32 * 1 + 1; omega
    | ⟨1, _⟩ =>
      show win0_2.index _ (1 : Fin 3) * 8 ≤ (i 1).val ∧ (i 1).val < win0_2.index _ (1 : Fin 3) * 8 + 8
      rw [e1]; omega
    | ⟨2, _⟩ =>
      show win0_2.index _ (2 : Fin 3) * 128 ≤ (i 2).val ∧ (i 2).val < win0_2.index _ (2 : Fin 3) * 128 + 128
      rw [e2]; omega

/-- The host operations after the region, as ONE function of the region's result array. -/
def tail (a : S2x8x128.Idx → EReal) : S_.Idx → EReal :=
  Host.divf (F := Ideal) (Host.reduceAdd (F := Ideal) (shapeCast S2 (extractStridedSlice S2x1x1 ![0, 0, 0] a slices_S2x8x128_S2x1x1_0_0_0) shapeCasts_S2x1x1_S2)
    (constant (F := Ideal) S_ .f32 0x00000000#32) reducesTo_S2_S_d0 h_S_) (constant (F := Ideal) S_ .f32 0x47000000#32)

/-- Entry `k` of the sliced and reshaped result is entry (k, 0, 0) of the region's result array. -/
theorem slice_apply (a : S2x8x128.Idx → EReal) (k : Fin 2) :
    shapeCast S2 (extractStridedSlice S2x1x1 ![0, 0, 0] a slices_S2x8x128_S2x1x1_0_0_0) shapeCasts_S2x1x1_S2 (ix1 k)
      = a (ix3 k (0 : Fin 8) (0 : Fin 128)) := by
  refine (shapeCast_apply _ shapeCasts_S2x1x1_S2 (ix1 k) (ix3 k (0 : Fin 1) (0 : Fin 1)) ?_).trans ?_
  · rw [Shape.rowMajor_val_three, Shape.rowMajor_val_one]
    show (k.val * 1 + 0) * 1 + 0 = k.val
    omega
  · unfold extractStridedSlice
    refine congrArg a (funext fun ax => Fin.ext ?_)
    match ax with
    | ⟨0, _⟩ => show 0 + k.val = k.val; omega
    | ⟨1, _⟩ => rfl
    | ⟨2, _⟩ => rfl

/-- THE TAIL of the region's result array: the two cores' accumulators added from zero and divided by the row
    count — the specification's total, by the regrouping of sums. -/
theorem tail_G (c : Dev nD) (i : S_.Idx) : tail (G m c) i = Spec.total (X m c) (Y m c) := by
  unfold tail Spec.total
  show Ideal.div (Ideal.hostReduceAdd reducesTo_S2_S_d0 _ _ i) (Ideal.ofBits .f32 0x47000000#32) = _
  rw [Ideal.hostReduceAdd_total reducesTo_S2_S_d0 (fun b => b.elim0)]
  refine congrArg (Ideal.div · _) (congrArg (Ideal.ofBits .f32 0x00000000#32 + ·) ?_)
  rw [← Spec.cores_eq, ← Fin.sum_univ_eq_sum_range (fun k => Spec.coreVal (X m c) (Y m c) k) 2]
  refine (Spec.sum_idx1 _).trans (Finset.sum_congr rfl fun k _ => ?_)
  rw [slice_apply]
  rfl

/-- The tail's result in the frame run's post is the tail of the region's result array. -/
theorem tail_eq (c : Dev nD) :
    Pipeline.afterTail₀ cfgs (dats m) 0 (V0 m) [hostOps1] c main_v4 = tail (G m c) := by
  unfold Pipeline.afterTail₀
  show StableHlo.after hostOps1 _ (Proc.devRef .tc main_v4) = _
  after_results
  exact congrArg tail ((Pipeline.withArrays_arr (cfgs 0).spec launch0.win.arr_inj c (V0 m c)
    (fun w => (dats m 0 c).arrAt w (cfgs 0).N) 2).trans (final m c))

/-- THE KERNEL'S RUN, read: its result is the specification's total of the two argument arrays, which end unchanged. -/
theorem run : θ_run defs (onTc (τ := τ) (main (F := Ideal))) ⟨m, fun _ => 0, ρ⟩ fun r => ∀ c : Dev nD,
      r.2.mem ((c.tc : Thread nD τ).loc main_v4) = (fun _ => Spec.total (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 rfl (by decide))).trans
        ((tail_eq m c).trans (funext fun i => tail_G m c i)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefValue.lean ====
/-
  The reference's result is the specification's total.

  Read one operation at a time (the read-at-an-index lemmas of the reference's run): `log_softmax` of a row is
  `(a_k - max ⊥ M) - log (0 + Σ_j exp (a_j - max ⊥ M))` with `M` the row's maximum from `-∞`; the two log-softmaxes
  are added and negated; the minimum over the row from `+∞` is `RowLaw.refRow`; it is halved, summed over the
  32768 rows from zero, and divided by 32768. On finite arrays `refRow` is `kernelRow` (RowLaw), so the result is
  `Spec.total`.
-/
import proofs.«120945_j82875688944017_2_alg».proof.Proof.RefReadP
import proofs.«120945_j82875688944017_2_alg».proof.Proof.Spec
import Idealize.ShloMosaic.PureOps.Reduce

noncomputable section

open Idealize.ShloMosaic Idealize.ShloMosaic.ValueIdx

namespace Cert.ReferenceIdeal.RefValue

open Cert.ReferenceIdeal Cert.ReferenceIdeal.Gen Cert.ReferenceIdeal.ReadP Cert.RowLaw

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

/-- Row `n` with the lane `k` put back on the reduced axis is the entry `(n, k)`. -/
theorem lift_row (n : Fin 32768) (k : Fin 2048) :
    (by decide : S32768x2048.Reduces [1] S32768).lift (ix1 n) k = ix2 n k :=
  funext fun a => Fin.ext (by match a with | ⟨0, _⟩ => rfl | ⟨1, _⟩ => rfl)

/-- The host's maximum over a row, from `-∞`. -/
theorem hostRowMax (x : FVec Ideal S32768x2048 .f32) (n : Fin 32768) :
    Host.reduce (FloatOps.maximumf (F := Ideal) (φ := .f32)) x (constant (F := Ideal) S_ .f32 0xFF800000#32) reducesTo_S32768x2048_S32768_d1 h_S_ (ix1 n)
      = rowMax (fun k : Fin 2048 => x (ix2 n k)) := by
  refine (Host.reduce_eq_fold_single (FloatOps.maximumf (F := Ideal) (φ := .f32)) x (constant (F := Ideal) S_ .f32 0xFF800000#32)
    reducesTo_S32768x2048_S32768_d1 (by decide) h_S_ (ix1 n)).trans ?_
  show (Finset.univ : Finset (Fin 2048)).fold max (Ideal.ofBits .f32 0xFF800000#32)
      (fun k : Fin 2048 => x ((by decide : S32768x2048.Reduces [1] S32768).lift (ix1 n) k)) = _
  rw [ofBits_negInf]
  simp only [lift_row]
  rfl

/-- The host's minimum over a row, from `+∞`. -/
theorem hostRowMin (x : FVec Ideal S32768x2048 .f32) (n : Fin 32768) :
    Host.reduce (FloatOps.minimumf (F := Ideal) (φ := .f32)) x (constant (F := Ideal) S_ .f32 0x7F800000#32) reducesTo_S32768x2048_S32768_d1 h_S_ (ix1 n)
      = (Finset.univ : Finset (Fin 2048)).fold min ⊤ (fun k : Fin 2048 => x (ix2 n k)) := by
  refine (Host.reduce_eq_fold_single (FloatOps.minimumf (F := Ideal) (φ := .f32)) x (constant (F := Ideal) S_ .f32 0x7F800000#32)
    reducesTo_S32768x2048_S32768_d1 (by decide) h_S_ (ix1 n)).trans ?_
  show (Finset.univ : Finset (Fin 2048)).fold min (Ideal.ofBits .f32 0x7F800000#32)
      (fun k : Fin 2048 => x ((by decide : S32768x2048.Reduces [1] S32768).lift (ix1 n) k)) = _
  rw [ofBits_posInf]
  simp only [lift_row]

/-! ## `log_softmax` of the first argument, stage by stage -/

/-- The shift: the row's maximum, clamped below by `-∞` as jax prints it. -/
theorem shift0 (x : (⟨S32768x2048, .f32⟩ : BufTy).Contents (Elt Ideal)) (n : Fin 32768) :
    val_main_call0_v2 (F := Ideal) x (ix1 n) = max ⊥ (rowMax (fun k : Fin 2048 => x (ix2 n k))) := by
  rw [val_main_call0_v2_apply, val_main_call0_v1_apply, val_main_call0_cst_0_apply]
  show max (Ideal.ofBits .f32 0xFF800000#32) (Host.reduce (FloatOps.maximumf (F := Ideal) (φ := .f32)) x
    (constant (F := Ideal) S_ .f32 0xFF800000#32) reducesTo_S32768x2048_S32768_d1 h_S_ (ix1 n)) = _
  rw [ofBits_negInf, hostRowMax]

theorem idx34 (n : Fin 32768) (k : Fin 2048) : idx_main_call0_v3 (idx_main_call0_v4 (ix2 n k)) = ix1 n :=
  funext fun a => Fin.ext (by match a with | ⟨0, _⟩ => rfl)

/-- The shifted entry. -/
theorem shifted0 (x : (⟨S32768x2048, .f32⟩ : BufTy).Contents (Elt Ideal)) (n : Fin 32768) (k : Fin 2048) :
    val_main_call0_v5 (F := Ideal) x (ix2 n k) = x (ix2 n k) - max ⊥ (rowMax (fun k : Fin 2048 => x (ix2 n k))) := by
  rw [val_main_call0_v5_apply, val_main_call0_v4_apply, val_main_call0_v3_apply, idx34, shift0, Ideal.subf_def]

theorem idx78 (n : Fin 32768) (k : Fin 2048) : idx_main_call0_v8 (idx_main_call0_v10 (ix2 n k)) = ix1 n :=
  funext fun a => Fin.ext (by match a with | ⟨0, _⟩ => rfl)

theorem idx7 (n : Fin 32768) (k : Fin 2048) : idx_main_call0_v7 (ix1 n) k = ix2 n k :=
  funext fun a => Fin.ext (by match a with | ⟨0, _⟩ => rfl | ⟨1, _⟩ => rfl)

/-- The row's `log Σ exp` of the shifted entries. -/
theorem lse0 (x : (⟨S32768x2048, .f32⟩ : BufTy).Contents (Elt Ideal)) (n : Fin 32768) (k : Fin 2048) :
    val_main_call0_v10 (F := Ideal) x (ix2 n k)
      = Ideal.log (0 + ∑ j : Fin 2048, Ideal.exp (x (ix2 n j) - max ⊥ (rowMax (fun k : Fin 2048 => x (ix2 n k))))) := by
  rw [val_main_call0_v10_apply, val_main_call0_v9_apply, val_main_call0_v8_apply, idx78, val_main_call0_v7_apply,
    val_main_call0_cst_1_apply, Ideal.hostUnary_log_def, Ideal.ofBits_def, Ideal.ofBits_zero_f32]
  refine congrArg (fun s => Ideal.log (0 + s)) (Finset.sum_congr rfl fun j _ => ?_)
  rw [val_main_call0_v6_apply, idx7, shifted0, Ideal.hostUnary_exp_def]

/-- `log_softmax` of a row, at an entry. -/
theorem logSoftmax0 (x : (⟨S32768x2048, .f32⟩ : BufTy).Contents (Elt Ideal)) (n : Fin 32768) (k : Fin 2048) :
    val_main_v0 (F := Ideal) x (ix2 n k)
      = (x (ix2 n k) - max ⊥ (rowMax (fun k : Fin 2048 => x (ix2 n k))))
        - Ideal.log (0 + ∑ j : Fin 2048, Ideal.exp (x (ix2 n j) - max ⊥ (rowMax (fun k : Fin 2048 => x (ix2 n k))))) := by
  rw [val_main_v0_apply, shifted0, lse0, Ideal.subf_def]

/-- The second call is the first call's function at the second argument. -/
theorem call1_eq (x : (⟨S32768x2048, .f32⟩ : BufTy).Contents (Elt Ideal)) :
    val_main_v1 (F := Ideal) x = val_main_v0 (F := Ideal) x := rfl

/-! ## The rest of the reference -/

/-- The negated sum of the two log-softmaxes, at an entry. -/
theorem negSum (x0 x1 : (⟨S32768x2048, .f32⟩ : BufTy).Contents (Elt Ideal)) (n : Fin 32768) (k : Fin 2048) :
    val_main_v3 (F := Ideal) x0 x1 (ix2 n k)
      = -(((x0 (ix2 n k) - max ⊥ (rowMax (fun k : Fin 2048 => x0 (ix2 n k))))
            - Ideal.log (0 + ∑ j : Fin 2048, Ideal.exp (x0 (ix2 n j) - max ⊥ (rowMax (fun k : Fin 2048 => x0 (ix2 n k))))))
          + ((x1 (ix2 n k) - max ⊥ (rowMax (fun k : Fin 2048 => x1 (ix2 n k))))
            - Ideal.log (0 + ∑ j : Fin 2048, Ideal.exp (x1 (ix2 n j) - max ⊥ (rowMax (fun k : Fin 2048 => x1 (ix2 n k))))))) := by
  rw [val_main_v3_apply, val_main_v2_apply, call1_eq, logSoftmax0, logSoftmax0, Ideal.hostNegf_def, Ideal.negf_def,
    Ideal.addf_def]

/-- A row's minimum, from `+∞`, of the negated sums: the reference's per-row value before the factor ½. -/
theorem rowMin (x0 x1 : (⟨S32768x2048, .f32⟩ : BufTy).Contents (Elt Ideal)) (n : Fin 32768) :
    val_main_v4 (F := Ideal) x0 x1 (ix1 n) = refRow (fun k : Fin 2048 => x0 (ix2 n k)) (fun k : Fin 2048 => x1 (ix2 n k)) := by
  show Host.reduce (FloatOps.minimumf (F := Ideal) (φ := .f32)) (val_main_v3 (F := Ideal) x0 x1)
    (constant (F := Ideal) S_ .f32 0x7F800000#32) reducesTo_S32768x2048_S32768_d1 h_S_ (ix1 n) = _
  rw [hostRowMin]
  unfold refRow
  simp only [negSum]

/-- The halved row value is the specification's. -/
theorem halfRow (x0 x1 : (⟨S32768x2048, .f32⟩ : BufTy).Contents (Elt Ideal)) (n : Fin 32768) :
    val_main_v6 (F := Ideal) x0 x1 (ix1 n) = Spec.refVal x0 x1 n.val := by
  rw [val_main_v6_apply, val_main_v5_apply, val_main_cst_0_apply, rowMin, Ideal.mulf_def, Ideal.ofBits_def]
  unfold Spec.refVal
  rw [Spec.row_of_lt x0 n.val n.isLt, Spec.row_of_lt x1 n.val n.isLt]

/-- THE REFERENCE'S RESULT on finite arrays: the specification's total. -/
theorem result (x0 x1 : (⟨S32768x2048, .f32⟩ : BufTy).Contents (Elt Ideal)) (hx : Spec.Finite x0) (hy : Spec.Finite x1)
    (i : S_.Idx) : val_main_v8 (F := Ideal) x0 x1 i = Spec.total x0 x1 := by
  rw [val_main_v8_apply, val_main_v7_apply, val_main_cst_2_apply, val_main_cst_1_apply, Ideal.hostDivf_def, Ideal.ofBits_def,
    Ideal.ofBits_def]
  unfold Spec.total
  have hs : ∑ j : S32768.Idx, val_main_v6 (F := Ideal) x0 x1 j = ∑ n ∈ Finset.range 32768, Spec.rowVal x0 x1 n := by
    rw [← Fin.sum_univ_eq_sum_range (fun n => Spec.rowVal x0 x1 n) 32768]
    refine (Spec.sum_idx1 _).trans (Finset.sum_congr rfl fun n _ => ?_)
    rw [halfRow, Spec.refVal_eq_rowVal x0 x1 hx hy]
  rw [hs]

end Cert.ReferenceIdeal.RefValue

end
-- ==== Proof.Finiteness.lean ====
/-
  The precondition, read back: every entry of both argument arrays is a real number.

  `finite_inputs` is `all (|x| < +∞) ∧ all (|y| < +∞)`. Each `all` is a reduction by `and` from `true` over every
  index, so its result is `true` only if every element's comparison is; and on the extended reals
  `max a (-a) < ⊤` leaves `a` neither `⊤` nor `⊥`.
-/
import proofs.«120945_j82875688944017_2_alg».proof.Proof.Gen.Pre_finite_inputs
import proofs.«120945_j82875688944017_2_alg».proof.Proof.Spec
import Idealize.ShloMosaic.Lib.ReduceAll

noncomputable section

open Idealize.ShloMosaic

namespace Cert.Pre_finite_inputs.Finiteness

open Cert.Pre_finite_inputs Cert.Pre_finite_inputs.Gen

instance : Subsingleton S_.Idx := ⟨fun a b => funext fun d => d.elim0⟩

/-- An extended real whose absolute value is below `+∞` is a real. -/
theorem real_of_abs_lt_top (a : EReal) (h : max a (-a) < ⊤) : ∃ r : ℝ, a = r := by
  induction a using EReal.rec with
  | bot => simp at h
  | top => simp at h
  | coe r => exact ⟨r, rfl⟩

/-- One `all (|x| < +∞)` that came out true: every entry is a real. -/
theorem finite_of_all (x : FVec Ideal S32768x2048 .f32)
    (h : Host.reduce IntOp.andi (cmpf .olt (Host.absf x) (broadcastInDim S32768x2048 ![] bcast_S_S32768x2048 (constant (F := Ideal) S_ .f32 0x7F800000#32)))
      (constantI S_ 1 1#1) reducesTo_S32768x2048_S_d0_1 h_S_ ValueIdx.ix0 = 1#1) : Spec.Finite x := by
  intro i
  have e := Host.reduce_andi_all _ _ _ _ _ h i
  have e' : Ideal.cmp .olt (max (x i) (-(x i))) (Ideal.ofBits .f32 0x7F800000#32) = 1#1 := e
  apply real_of_abs_lt_top
  have hinf : Ideal.ofBits .f32 0x7F800000#32 = ⊤ := by simp [Ideal.ofBits, Ideal.ieee]
  rw [hinf] at e'
  unfold Ideal.cmp at e'
  by_contra hlt
  simp [hlt] at e'

/-- THE PRECONDITION READ BACK. -/
theorem finite_of_pre (x y : FVec Ideal S32768x2048 .f32) (h : fn (F := Ideal) x y = fun _ => 1#1) :
    Spec.Finite x ∧ Spec.Finite y := by
  have h0 := congrFun h ValueIdx.ix0
  obtain ⟨hx, hy⟩ := IntOp.andi_eq_one.1 (show IntOp.andi _ _ = 1#1 from h0)
  exact ⟨finite_of_all x hx, finite_of_all y hy⟩

end Cert.Pre_finite_inputs.Finiteness

end
-- ==== Proof.lean ====
/-
  The min-entropy consensus loss: a kernel that never forms the log-softmax, against the jnp reference that does.

  For two arrays `x`, `y` of 32768 rows and 2048 classes the reference computes
  `mean_n ½ · min_c -(log_softmax x [n,c] + log_softmax y [n,c])`. With `M a = max_c a_c` and
  `L a = log Σ_c exp (a_c - M a)` one has `log_softmax a c = (a_c - M a) - L a`, so the negated sum at `c` is the
  constant `(M x + L x + M y + L y)` minus `x_c + y_c`, and its minimum over `c` is that constant minus
  `max_c (x_c + y_c)`: this is what the kernel computes per row (RowLaw; an identity of real numbers, so it USES the
  precondition that every input is finite: Finiteness). The kernel sums the halved row values tile by tile into a
  per-core accumulator over a 2 × 32 grid and the host adds the two cores and divides by 32768; the reference sums
  all rows at once and divides by 32768: the same sum in another grouping (SumLaw; no finiteness needed). Both
  results are therefore `Spec.total x y` (KernelResult for the kernel, RefValue for the reference).

  The three frames are the generated frame runs (the reference's is its run with the result dropped); the ideal
  pass rewrote nothing, so `preserves` is `True`.
-/
import proofs.«120945_j82875688944017_2_alg».proof.Defs
import proofs.«120945_j82875688944017_2_alg».proof.Proof.Gen.Kernel
import proofs.«120945_j82875688944017_2_alg».proof.Proof.Gen.Kernel.Skeleton
import proofs.«120945_j82875688944017_2_alg».proof.Proof.Gen.Kernel.Launch
import proofs.«120945_j82875688944017_2_alg».proof.Proof.Gen.Kernel.Points
import proofs.«120945_j82875688944017_2_alg».proof.Proof.Gen.Kernel.Frame
import proofs.«120945_j82875688944017_2_alg».proof.Proof.Gen.KernelIdeal
import proofs.«120945_j82875688944017_2_alg».proof.Proof.Gen.KernelIdeal.Skeleton
import proofs.«120945_j82875688944017_2_alg».proof.Proof.Gen.KernelIdeal.Launch
import proofs.«120945_j82875688944017_2_alg».proof.Proof.Gen.KernelIdeal.Points
import proofs.«120945_j82875688944017_2_alg».proof.Proof.Gen.KernelIdeal.Frame
import proofs.«120945_j82875688944017_2_alg».proof.Proof.Gen.ReferenceIdeal
import proofs.«120945_j82875688944017_2_alg».proof.Proof.Gen.Pre_finite_inputs
import proofs.«120945_j82875688944017_2_alg».proof.Proof.KernelResult
import proofs.«120945_j82875688944017_2_alg».proof.Proof.RefValue
import proofs.«120945_j82875688944017_2_alg».proof.Proof.Finiteness
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the ideal instance, from memories that agree on the two arguments and hold finite numbers there, the kernel's
    result and the reference's are both the specification's total of the arguments. -/
theorem algebraic : Cert.algebraic_KernelIdeal_ReferenceIdeal := by
  intro m ρ m' ρ' hpre hagree
  refine ⟨fun c => (fun _ => Cert.Spec.total (Cert.KernelIdeal.Acc.X m c) (Cert.KernelIdeal.Acc.Y m c)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hy⟩ := Cert.Pre_finite_inputs.Finiteness.finite_of_pre _ _ (hpre c)
  rw [Cert.ReferenceIdeal.ReadP.val_main_v8_eq, (hagree c).1, (hagree c).2]
  exact funext fun i => Cert.ReferenceIdeal.RefValue.result _ _ hx hy i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
